-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S32768x64 : Shape := ⟨2, ![32768, 64]⟩
abbrev S2048x64 : Shape := ⟨2, ![2048, 64]⟩
abbrev S64 : Shape := ⟨1, ![64]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S32768x64 : S_.BroadcastsInDim S32768x64 (![] : Fin 0 → Fin S32768x64.rank)
  reducesTo_S32768x64_S_d0_1 : S32768x64.ReducesTo [0, 1] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S32768x2048 .f32) (main_arg1 : FVec F S32768x64 .f32) (main_arg2 : FVec F S2048x64 .f32) (main_arg3 : FVec F S64 .f32) (main_arg4 : IVec S32768x2048 1) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S32768x64 .f32 := Host.absf main_arg1
  let main_cst_0 : FVec F S_ .f32 := constant S_ .f32 0x7F800000#32
  let main_v5 : FVec F S32768x64 .f32 := broadcastInDim S32768x64 ![] bcast_S_S32768x64 main_cst_0
  let main_v6 : IVec S32768x64 1 := cmpf .olt main_v4 main_v5
  let main_c_1 : IVec S_ 1 := constantI S_ 1 1#1
  let main_v7 : IVec S_ 1 := (fun x v => Host.reduce IntOp.andi x v reducesTo_S32768x64_S_d0_1 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S32768x2048 : Shape := ⟨2, ![32768, 2048]⟩
abbrev S32768x64 : Shape := ⟨2, ![32768, 64]⟩
abbrev S2048x64 : Shape := ⟨2, ![2048, 64]⟩
abbrev S64 : Shape := ⟨1, ![64]⟩
abbrev S1x64 : Shape := ⟨2, ![1, 64]⟩
abbrev S2048x2048 : Shape := ⟨2, ![2048, 2048]⟩

abbrev nBuf : Space → Nat
  | .hbm => 8
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768x64, .f32⟩
  | .hbm, ⟨2, _⟩ => ⟨S2048x64, .f32⟩
  | .hbm, ⟨3, _⟩ => ⟨S64, .f32⟩
  | .hbm, ⟨4, _⟩ => ⟨S32768x2048, .i1⟩
  | .hbm, ⟨5, _⟩ => ⟨S1x64, .f32⟩
  | .hbm, ⟨6, _⟩ => ⟨S32768x2048, .i32⟩
  | .hbm, ⟨7, _⟩ => ⟨S32768x64, .f32⟩
  | .local _ .vmem, ⟨0, _⟩ => ⟨S2048x2048, .f32⟩
  | .local _ .vmem, ⟨1, _⟩ => ⟨S2048x2048, .f32⟩
  | .local _ .vmem, ⟨2, _⟩ => ⟨S2048x2048, .i32⟩
  | .local _ .vmem, ⟨3, _⟩ => ⟨S2048x2048, .i32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S1x64, .f32⟩
  | .local _ .vmem, ⟨8, _⟩ => ⟨S2048x64, .f32⟩
  | .local _ .vmem, ⟨9, _⟩ => ⟨S2048x64, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  natLt_1_32 : 1 < 32
  inb_S2048x2048_S2048x2048_0_0 : ∀ a, (![0, 0] : Fin 2 → Nat) a + S2048x2048.size a ≤ S2048x2048.size a
  h_S2048x2048 : 0 < S2048x2048.numel
  inb_S2048x64_S2048x64_0_0 : ∀ a, (![0, 0] : Fin 2 → Nat) a + S2048x64.size a ≤ S2048x64.size a
  h_S2048x64 : 0 < S2048x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S32768x2048.size a
  hwx0_0 : ∀ i : grid0.Coords, EltTy.bits .f32 = 32 ∨ (Rect.block (s := S32768x2048) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S32768x2048.size a
  hwx0_1 : ∀ i : grid0.Coords, EltTy.bits .i32 = 32 ∨ (Rect.block (s := S32768x2048) S2048x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S32768x64.size a
  hwx0_2 : ∀ i : grid0.Coords, EltTy.bits .f32 = 32 ∨ (Rect.block (s := S32768x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .f32 = 32 ∨ (Rect.block (s := S2048x64) S2048x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S32768x64.size a
  hwx0_5 : ∀ i : grid0.Coords, EltTy.bits .f32 = 32 ∨ (Rect.block (s := S32768x64) S2048x64.size (cc0_transform_5 i) (hinb0_5 i)).WholeWords (EltTy.packing .f32)

variable [Facts₀]

def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S32768x64 : Shape := ⟨2, ![32768, 64]⟩
abbrev S2048x64 : Shape := ⟨2, ![2048, 64]⟩
abbrev S64 : Shape := ⟨1, ![64]⟩
abbrev S_ : Shape := ⟨0, ![]⟩
abbrev S1x64 : Shape := ⟨2, ![1, 64]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x64, .f32⟩
  | .hbm, ⟨2, _⟩ => ⟨S2048x64, .f32⟩
  | .hbm, ⟨3, _⟩ => ⟨S64, .f32⟩
  | .hbm, ⟨4, _⟩ => ⟨S32768x2048, .i1⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x64, .f32⟩
  | .hbm, ⟨9, _⟩ => ⟨S1x64, .f32⟩
  | .hbm, ⟨10, _⟩ => ⟨S32768x64, .f32⟩
  | .hbm, ⟨11, _⟩ => ⟨S32768x64, .f32⟩
  | .hbm, ⟨12, _⟩ => ⟨S_, .f32⟩
  | .hbm, ⟨13, _⟩ => ⟨S32768x64, .f32⟩
  | .hbm, ⟨14, _⟩ => ⟨S32768x64, .f32⟩
  | .hbm, ⟨15, _⟩ => ⟨S32768x64, .f32⟩
  | .hbm, ⟨16, _⟩ => ⟨S_, .f32⟩
  | .hbm, ⟨17, _⟩ => ⟨S32768x64, .f32⟩
  | .hbm, ⟨18, _⟩ => ⟨S32768x64, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_cst : Ref sig .tc := ⟨.hbm, 16, rfl⟩
abbrev main_call1_v0 : Ref sig .tc := ⟨.hbm, 17, rfl⟩
abbrev main_v8 : Ref sig .tc := ⟨.hbm, 18, rfl⟩

abbrev nD : Nat := 1
abbrev τ : Topo := Topo.v7x

variable {F : FTy → Type} [FloatOps F]

class Facts₀ : Prop where
  bcast_S_S32768x2048 : S_.BroadcastsInDim S32768x2048 (![] : Fin 0 → Fin S32768x2048.rank)
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  dot_S32768x2048_S2048x64_S32768x64_1_0_0_1_n_n_wf : DotDims.WF S32768x2048 S2048x64 S32768x64 [1] [0] [0] [1] [] []

variable [Facts₀]

def dot_S32768x2048_S2048x64_S32768x64_1_0_0_1_n_n : DotDims S32768x2048 S2048x64 S32768x64 where
  lhsContracting := [1]
  rhsContracting := [0]
  lhsNonContracting := [0]
  rhsNonContracting := [1]
  lhsBatch := []
  rhsBatch := []
  wf := dot_S32768x2048_S2048x64_S32768x64_1_0_0_1_n_n_wf

class Facts : Prop extends Facts₀ where

variable [Facts]
-- ==== Proof.Layer.lean ====
/-
  The function both programs compute, stated over the argument arrays alone.

  A dense layer on thalamically masked inputs: row `r` of the input has its dropped units (mask bit set)
  replaced by zero, is contracted with column `j` of the weights over the 2048 input units, has the bias of
  unit `j` added, then the prediction of unit `j` scaled by the modulation factor, and is rectified:

    out r j = max ((∑ k, (if drop r k then 0 else x r k) · W k j + b j) + c · pred r j) 0.

  Everything is read on the extended reals; the two float words (zero, and the modulation factor's word) are
  kept as words, the same ones in both programs, so their values are never needed.
-/
import Idealize.ShloMosaic.PureOps.Ideal
import Idealize.ShloMosaic.PureOps.Ideal.Laws
import Idealize.ShloMosaic.Lib.ValueIdx

noncomputable section

namespace Cert.MaskedLayer

open Idealize.ShloMosaic Idealize.ShloMosaic.ValueIdx

/-- The word of the zero both programs select and rectify against. -/
abbrev zeroW : EReal := Ideal.ofBits .f32 0x00000000#32

/-- The word of the modulation factor (the float nearest 0.3), the same literal in both programs. -/
abbrev modW : EReal := Ideal.ofBits .f32 0x3E99999A#32

/-- Input unit `k` of row `r` after masking: zero where the drop bit is set, the input otherwise. -/
def masked (x : (⟨2, ![32768, 2048]⟩ : Shape).Idx → EReal) (drop : (⟨2, ![32768, 2048]⟩ : Shape).Idx → BitVec 1)
    (r : Fin 32768) (k : Fin 2048) : EReal :=
  Scalar.select (drop (ix2 r k)) zeroW (x (ix2 r k))

/-- The layer's output at row `r`, unit `j`. -/
def entry (x : (⟨2, ![32768, 2048]⟩ : Shape).Idx → EReal) (pred : (⟨2, ![32768, 64]⟩ : Shape).Idx → EReal)
    (W : (⟨2, ![2048, 64]⟩ : Shape).Idx → EReal) (b : (⟨1, ![64]⟩ : Shape).Idx → EReal)
    (drop : (⟨2, ![32768, 2048]⟩ : Shape).Idx → BitVec 1) (r : Fin 32768) (j : Fin 64) : EReal :=
  max ((∑ k : Fin 2048, masked x drop r k * W (ix2 k j) + b (ix1 j)) + modW * pred (ix2 r j)) zeroW

/-- The layer's output array. -/
def out (x : (⟨2, ![32768, 2048]⟩ : Shape).Idx → EReal) (pred : (⟨2, ![32768, 64]⟩ : Shape).Idx → EReal)
    (W : (⟨2, ![2048, 64]⟩ : Shape).Idx → EReal) (b : (⟨1, ![64]⟩ : Shape).Idx → EReal)
    (drop : (⟨2, ![32768, 2048]⟩ : Shape).Idx → BitVec 1) : (⟨2, ![32768, 64]⟩ : Shape).Idx → EReal :=
  fun i => entry x pred W b drop (i 0) (i 1)

theorem out_ix2 (x : (⟨2, ![32768, 2048]⟩ : Shape).Idx → EReal) (pred : (⟨2, ![32768, 64]⟩ : Shape).Idx → EReal)
    (W : (⟨2, ![2048, 64]⟩ : Shape).Idx → EReal) (b : (⟨1, ![64]⟩ : Shape).Idx → EReal)
    (drop : (⟨2, ![32768, 2048]⟩ : Shape).Idx → BitVec 1) (r : Fin 32768) (j : Fin 64) :
    out x pred W b drop (ix2 r j) = entry x pred W b drop r j := rfl

/-- A drop bit widened to a word and compared against the zero word gives the bit back: the kernel receives the
    mask as 32-bit integers and tests them for being nonzero. -/
theorem ne_zero_of_widened (d : BitVec 1) : IntOp.cmpi .ne (d.setWidth 32) 0#32 = d := by
  rcases BitVec.eq_zero_or_eq_one d with h | h <;> subst h <;> decide

end Cert.MaskedLayer

end
-- ==== Proof.TileEntry.lean ====
/-
  One grid step of the kernel, read at an index of its tile.

  A step holds a tile of 2048 rows: the rows' inputs, their drop flags as 32-bit integers, their predictions, and
  the whole weight matrix and bias row. It zeroes the inputs whose flag is nonzero, multiplies the masked tile by
  the weights into a zero accumulator, adds the bias row to every row and the scaled predictions, and rectifies.
  At row `p` of the tile and unit `q` the stored value is therefore

    max ((∑ k, (if flag p k ≠ 0 then 0 else x p k) · W k q + b 0 q) + c · pred p q) 0,

  the product into a zero accumulator being the plain sum over the 2048 input units on the extended reals.
-/
import proofs.«128438_j16887811408602_2_alg».proof.Proof.Gen.KernelIdeal.Skeleton
import proofs.«128438_j16887811408602_2_alg».proof.Proof.Layer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.MaskedLayer

/-- The tile product's dimension numbers: rows of the left operand against columns of the right, contracted over the
    left's columns and the right's rows. -/
abbrev dims : DotDims S2048x2048 S2048x64 S2048x64 := dot_S2048x2048_S2048x64_S2048x64_1_0_0_1_n_n

/-- The left operand is read in the output's row … -/
theorem lhs_row (i : S2048x64.Idx) (c : dims.contr.Idx) : (dims.lhsIdx i c 0).val = (i 0).val := by
  unfold DotDims.lhsIdx
  rw [dif_neg (show ¬(0 : Fin S2048x2048.rank) ∈ dims.lhsBatch by decide),
    dif_pos (show (0 : Fin S2048x2048.rank) ∈ dims.lhsNonContracting by decide)]
  rfl

/-- … at the contracted position; -/
theorem lhs_col (i : S2048x64.Idx) (c : dims.contr.Idx) : (dims.lhsIdx i c 1).val = (c ⟨0, by decide⟩).val :=
  dims.lhsIdx_val_of_single rfl i c

/-- the right operand at the contracted position … -/
theorem rhs_row (i : S2048x64.Idx) (c : dims.contr.Idx) : (dims.rhsIdx i c 0).val = (c ⟨0, by decide⟩).val :=
  dims.rhsIdx_val_of_single rfl i c

/-- … in the output's column. -/
theorem rhs_col (i : S2048x64.Idx) (c : dims.contr.Idx) : (dims.rhsIdx i c 1).val = (i 1).val := by
  unfold DotDims.rhsIdx
  rw [dif_neg (show ¬(1 : Fin S2048x64.rank) ∈ dims.rhsBatch by decide),
    dif_pos (show (1 : Fin S2048x64.rank) ∈ dims.rhsNonContracting by decide)]
  rfl

/-- The tile product into a zero accumulator, at row `p` and unit `q`: the sum over the input units of the left
    operand's row `p` times the right operand's column `q`. -/
theorem product_at (lhs : FVec Ideal S2048x2048 .f32) (rhs : FVec Ideal S2048x64 .f32) (p : Fin 2048) (q : Fin 64) :
    FloatOps.matmul dims none lhs rhs (constant (F := Ideal) S2048x64 .f32 0x00000000#32) (ix2 p q)
      = ∑ k : Fin 2048, lhs (ix2 p k) * rhs (ix2 k q) := by
  rw [Ideal.matmul_constant_zero_apply, ← Equiv.sum_comp (contrEquiv1 dims 2048 rfl rfl).symm]
  refine Finset.sum_congr rfl fun k _ => ?_
  have hk := contrEquiv1_symm_val dims 2048 rfl rfl k
  have el : dims.lhsIdx (ix2 p q) ((contrEquiv1 dims 2048 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 2048 rfl rfl).symm k) = ix2 k q := funext fun a => Fin.ext (by
    match a with
    | ⟨0, _⟩ => exact (rhs_row _ _).trans hk
    | ⟨1, _⟩ => exact rhs_col _ _)
  rw [el, er]

/-- What a step stores at row `p`, unit `q` of its tile, from the blocks it loaded. -/
theorem stored_at (x : Vec Ideal S2048x2048 .f32) (flag : Vec Ideal S2048x2048 .i32) (w : Vec Ideal S2048x64 .f32)
    (bias : Vec Ideal S1x64 .f32) (pred : Vec Ideal S2048x64 .f32) (p : Fin 2048) (q : Fin 64) :
    k0_pay1 (F := Ideal) x flag w bias pred (ix2 p q)
      = max ((∑ k : Fin 2048, Scalar.select (IntOp.cmpi .ne (flag (ix2 p k)) 0#32) zeroW (x (ix2 p k)) * w (ix2 k q)
          + bias (ix2 (0 : Fin 1) q)) + modW * pred (ix2 p q)) zeroW := by
  show max ((FloatOps.matmul dims none (select (cmpi .ne flag (constantI S2048x2048 32 0#32)) (broadcast S2048x2048 zeroW) x) w
        (constant (F := Ideal) S2048x64 .f32 0x00000000#32) (ix2 p q)
      + broadcastTo S2048x64 (shapeCast S1x64 bias shapeCasts_S1x64_S1x64) broadcasts_S1x64_S2048x64 (ix2 p q))
      + modW * pred (ix2 p q)) zeroW = _
  rw [product_at, shapeCast_self, broadcastTo_1b_ab_apply]
  rfl

/-- A step's tile is a block of the layer's rows. If row `p` of the loaded blocks is row `r` of the inputs, of the drop
    bits widened to words and of the predictions, and the weights and the bias row are the whole arrays, then what the
    step stores at row `p`, unit `q` is the layer's entry at row `r`, unit `q`: testing a widened bit for being nonzero
    gives the bit back. -/
theorem stored_is_entry (X : (⟨2, ![32768, 2048]⟩ : Shape).Idx → EReal) (Pred : (⟨2, ![32768, 64]⟩ : Shape).Idx → EReal)
    (Wt : (⟨2, ![2048, 64]⟩ : Shape).Idx → EReal) (B : (⟨1, ![64]⟩ : Shape).Idx → EReal)
    (Drop : (⟨2, ![32768, 2048]⟩ : Shape).Idx → BitVec 1)
    (x : Vec Ideal S2048x2048 .f32) (flag : Vec Ideal S2048x2048 .i32) (w : Vec Ideal S2048x64 .f32)
    (bias : Vec Ideal S1x64 .f32) (pred : Vec Ideal S2048x64 .f32) (p : Fin 2048) (q : Fin 64) (r : Fin 32768)
    (hx : ∀ k : Fin 2048, x (ix2 p k) = X (ix2 r k))
    (hflag : ∀ k : Fin 2048, flag (ix2 p k) = (Drop (ix2 r k)).setWidth 32)
    (hw : ∀ k : Fin 2048, w (ix2 k q) = Wt (ix2 k q))
    (hbias : bias (ix2 (0 : Fin 1) q) = B (ix1 q))
    (hpred : pred (ix2 p q) = Pred (ix2 r q)) :
    k0_pay1 (F := Ideal) x flag w bias pred (ix2 p q) = entry X Pred Wt B Drop r q := by
  rw [stored_at, hbias, hpred]
  unfold entry masked
  simp only [hx, hflag, hw, ne_zero_of_widened]

end Cert.KernelIdeal.Tile

end
-- ==== Proof.Rows.lean ====
/-
  From tiles to the array.

  The grid has 16 steps; step `t` works on rows `2048·t … 2048·t + 2047`: it is handed those rows of the inputs, of
  the drop flags and of the predictions, and the whole weights and bias, and writes those rows of the result. Before
  the steps run, the bias has been re-laid as one row and the drop bits widened to 32-bit words. So what step `t`
  writes back is rows `2048·t …` of the layer's output array of the arguments, the 16 row blocks cover the array
  (row `r` is in block `r / 2048`), and the result array ends holding the layer's output.
-/
import proofs.«128438_j16887811408602_2_alg».proof.Proof.Gen.KernelIdeal.Value
import proofs.«128438_j16887811408602_2_alg».proof.Proof.TileEntry
import Idealize.ShloMosaic.Lib.StableHlo.Run
import Idealize.ShloMosaic.Lib.ValueLayout
import Idealize.ShloMosaic.Lib.Pipeline.Value

noncomputable section

namespace Cert.KernelIdeal.Rows

open Cert.KernelIdeal Cert.KernelIdeal.Gen Idealize.ShloMosaic Idealize.ShloMosaic.TcCoe Idealize.SL.Sem
open Idealize.ShloMosaic.StableHlo Idealize.ShloMosaic.ValueIdx Cert.MaskedLayer
open Idealize.ShloMosaic.Pipeline (Dat)

variable (m : (ℓ : Loc nD τ sig) → Buf (Elt Ideal) ℓ) (ρ : Dev nD → PrngReg)

/-- The layer's output array of the arguments as launched on core `c`. -/
abbrev layerOf (c : Dev nD) : Buf (Elt Ideal) ((c : Thread nD τ).loc main_v2) :=
  out (m ((c : Thread nD τ).loc main_arg0)) (m ((c : Thread nD τ).loc main_arg1)) (m ((c : Thread nD τ).loc main_arg2))
    (m ((c : Thread nD τ).loc main_arg3)) (m ((c : Thread nD τ).loc main_arg4))

theorem origin_zero : (![0, 0] : Fin 2 → Nat) = fun _ => 0 := funext fun a => by fin_cases a <;> rfl

/-! ## What the steps find -/

/-- The drop flags the steps read are the drop bits widened to 32-bit words. -/
theorem flags_eq (c : Dev nD) :
    (V m c main_v1 : S32768x2048.Idx → BitVec 32) = extui 32 (m ((c : Thread nD τ).loc main_arg4)) natLt_1_32 := by
  dsimp only [Gen.V, Gen.hostOps0]; after_results <;> rfl

/-- The bias row the steps read is the bias re-laid as a one-row array. -/
theorem bias_row_eq (c : Dev nD) :
    (V m c main_v0 : S1x64.Idx → EReal) = shapeCast S1x64 (m ((c : Thread nD τ).loc main_arg3)) shapeCasts_S64_S1x64 := by
  dsimp only [Gen.V, Gen.hostOps0]; after_results <;> rfl

/-- Where each window's block sits at step `t`: the row-tiled ones at block row `t`, the weights and the bias at the
    origin (decided over the 16 steps). -/
theorem tile_origin : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the input tile at step `t` is row `r = 2048·t + p` of the input. -/
theorem input_at (c : Dev nD) (t : Fin cfg0.N) (p k : Fin 2048) (r : Fin 32768) (hr : r.val = 2048 * t.val + p.val) :
    (iblk m c 0 t : Vec Ideal S2048x2048 .f32) (ix2 p k)
      = (m ((c : Thread nD τ).loc main_arg0) : S32768x2048.Idx → EReal) (ix2 r k) := by
  obtain ⟨e0, e1, -⟩ := tile_origin t
  unfold iblk
  rw [View.read_apply]
  show V m c main_arg0 _ = _
  rw [V_main_arg0]
  congr 1
  funext a
  apply Fin.ext
  match a with
  | ⟨0, _⟩ => show win0_0.index t (0 : Fin 2) * 2048 + 1 * p.val = r.val; rw [e0, hr]; omega
  | ⟨1, _⟩ => show win0_0.index t (1 : Fin 2) * 2048 + 1 * k.val = k.val; rw [e1]; omega

/-- Row `p` of the flag tile at step `t` is row `r` of the drop bits, widened. -/
theorem flag_at (c : Dev nD) (t : Fin cfg0.N) (p k : Fin 2048) (r : Fin 32768) (hr : r.val = 2048 * t.val + p.val) :
    (iblk m c 1 t : Vec Ideal S2048x2048 .i32) (ix2 p k)
      = ((m ((c : Thread nD τ).loc main_arg4) : S32768x2048.Idx → BitVec 1) (ix2 r k)).setWidth 32 := by
  obtain ⟨-, -, e0, e1, -⟩ := tile_origin t
  unfold iblk
  rw [View.read_apply]
  show (V m c main_v1 : S32768x2048.Idx → BitVec 32) _ = _
  rw [flags_eq, extui_apply]
  congr 2
  funext a
  apply Fin.ext
  match a with
  | ⟨0, _⟩ => show win0_1.index t (0 : Fin 2) * 2048 + 1 * p.val = r.val; rw [e0, hr]; omega
  | ⟨1, _⟩ => show win0_1.index t (1 : Fin 2) * 2048 + 1 * k.val = k.val; rw [e1]; omega

/-- Row `p` of the prediction tile at step `t` is row `r` of the predictions. -/
theorem pred_at (c : Dev nD) (t : Fin cfg0.N) (p : Fin 2048) (q : Fin 64) (r : Fin 32768) (hr : r.val = 2048 * t.val + p.val) :
    (iblk m c 2 t : Vec Ideal S2048x64 .f32) (ix2 p q)
      = (m ((c : Thread nD τ).loc main_arg1) : S32768x64.Idx → EReal) (ix2 r q) := by
  obtain ⟨-, -, -, -, e0, e1, -⟩ := tile_origin t
  unfold iblk
  rw [View.read_apply]
  show V m c main_arg1 _ = _
  rw [V_main_arg1]
  congr 1
  funext a
  apply Fin.ext
  match a with
  | ⟨0, _⟩ => show win0_2.index t (0 : Fin 2) * 2048 + 1 * p.val = r.val; rw [e0, hr]; omega
  | ⟨1, _⟩ => show win0_2.index t (1 : Fin 2) * 64 + 1 * q.val = q.val; rw [e1]; omega

/-- Every step is handed the whole weight matrix. -/
theorem weight_at (c : Dev nD) (t : Fin cfg0.N) (k : Fin 2048) (q : Fin 64) :
    (iblk m c 3 t : Vec Ideal S2048x64 .f32) (ix2 k q)
      = (m ((c : Thread nD τ).loc main_arg2) : S2048x64.Idx → EReal) (ix2 k q) := by
  obtain ⟨-, -, -, -, -, -, e0, e1, -⟩ := tile_origin t
  unfold iblk
  rw [View.read_apply]
  show V m c main_arg2 _ = _
  rw [V_main_arg2]
  congr 1
  funext a
  apply Fin.ext
  match a with
  | ⟨0, _⟩ => show win0_3.index t (0 : Fin 2) * 2048 + 1 * k.val = k.val; rw [e0]; omega
  | ⟨1, _⟩ => show win0_3.index t (1 : Fin 2) * 64 + 1 * q.val = q.val; rw [e1]; omega

/-- Every step is handed the bias as one row: unit `q` of that row is the bias of unit `q`. -/
theorem bias_at (c : Dev nD) (t : Fin cfg0.N) (q : Fin 64) :
    (iblk m c 4 t : Vec Ideal S1x64 .f32) (ix2 (0 : Fin 1) q)
      = (m ((c : Thread nD τ).loc main_arg3) : S64.Idx → EReal) (ix1 q) := by
  obtain ⟨-, -, -, -, -, -, -, -, e0, e1, -⟩ := tile_origin t
  unfold iblk
  rw [View.read_apply]
  show (V m c main_v0 : S1x64.Idx → EReal) _ = _
  rw [bias_row_eq]
  refine Eq.trans (congrArg _ (funext fun a => Fin.ext ?_)) (shapeCast_a_1a_apply _ shapeCasts_S64_S1x64 (0 : Fin 1) q)
  match a with
  | ⟨0, _⟩ => show win0_4.index t (0 : Fin 2) * 1 + 1 * 0 = 0; rw [e0]
  | ⟨1, _⟩ => show win0_4.index t (1 : Fin 2) * 64 + 1 * q.val = q.val; rw [e1]; omega

/-! ## What a step writes back, and the array after the last step -/

/-- Step `t` writes back rows `2048·t … 2048·t + 2047` of the layer's output array. -/
theorem flushed_eq (c : Dev nD) (t : Fin cfg0.N) :
    (dats m 0 c).flushed 5 t = ((cfg0.win 5).blk t).view.read (Elt Ideal) (layerOf m c) := by
  rw [Value.flushed5]
  unfold out0_5
  rw [View.canon_unit_zero origin_zero]
  simp only [View.ld_unit_zero (S := S2048x2048) origin_zero, View.ld_unit_zero (S := S2048x64) origin_zero,
    View.ld_unit_zero (S := S1x64) origin_zero]
  have hN : cfg0.N = 16 := N_0
  have ht : t.val < 16 := hN ▸ t.isLt
  obtain ⟨-, -, -, -, -, -, -, -, -, -, e0, e1⟩ := tile_origin t
  funext y
  obtain ⟨p, q, rfl⟩ : ∃ (p : Fin 2048) (q : Fin 64), y = ix2 p q := ⟨y 0, y 1, eq_ix2 y⟩
  have hp : p.val < 2048 := p.isLt
  have hrow : ((cfg0.win 5).blk t).view.emb (ix2 p q) = ix2 (⟨2048 * t.val + p.val, by omega⟩ : Fin 32768) q :=
    funext fun a => Fin.ext (by
      match a with
      | ⟨0, _⟩ => show win0_5.index t (0 : Fin 2) * 2048 + 1 * p.val = 2048 * t.val + p.val; rw [e0]; omega
      | ⟨1, _⟩ => show win0_5.index t (1 : Fin 2) * 64 + 1 * q.val = q.val; rw [e1]; omega)
  show k0_pay1 (F := Ideal) (iblk m c 0 t) (iblk m c 1 t) (iblk m c 3 t) (iblk m c 4 t) (iblk m c 2 t) (ix2 p q)
    = layerOf m c (((cfg0.win 5).blk t).view.emb (ix2 p q))
  rw [hrow]
  refine (Tile.stored_is_entry (m ((c : Thread nD τ).loc main_arg0)) (m ((c : Thread nD τ).loc main_arg1))
    (m ((c : Thread nD τ).loc main_arg2)) (m ((c : Thread nD τ).loc main_arg3)) (m ((c : Thread nD τ).loc main_arg4))
    (iblk m c 0 t) (iblk m c 1 t) (iblk m c 3 t) (iblk m c 4 t) (iblk m c 2 t) p q ⟨2048 * t.val + p.val, by omega⟩
    (fun k => input_at m c t p k _ rfl) (fun k => flag_at m c t p k _ rfl) (fun k => weight_at m c t k q)
    (bias_at m c t q) (pred_at m c t p q _ rfl)).trans ?_
  exact (out_ix2 (m ((c : Thread nD τ).loc main_arg0)) (m ((c : Thread nD τ).loc main_arg1))
    (m ((c : Thread nD τ).loc main_arg2)) (m ((c : Thread nD τ).loc main_arg3)) (m ((c : Thread nD τ).loc main_arg4))
    ⟨2048 * t.val + p.val, by omega⟩ q).symm

/-- An index of the result array is in step `t`'s block iff each coordinate is in the block's range on its axis. -/
theorem mem_tile (t : Fin cfg0.N) (i : S32768x64.Idx) :
    i ∈ ((cfg0.win 5).blk t).view.set
      ↔ ∀ a : Fin 2, win0_5.index t a * S2048x64.size a ≤ (i a).val ∧ (i a).val < win0_5.index t a * S2048x64.size a + S2048x64.size a := by
  show i ∈ ((View.whole main_v2).slice (win0_5.rect t)).set ↔ _
  rw [View.set_slice_whole, Rect.mem_set_unit]
  exact Iff.rfl

/-- Every row is in some step's block: row `r` in step `r / 2048`'s. -/
theorem covered (i : S32768x64.Idx) :
    ∃ t : Fin cfg0.N, (cfg0.win 5).flush t = true ∧ i ∈ ((cfg0.win 5).blk t).view.set := by
  have hi0 : (i 0).val < 32768 := (i 0).isLt
  have hi1 : (i 1).val < 64 := (i 1).isLt
  have hN : cfg0.N = 16 := N_0
  obtain ⟨t, htv⟩ : ∃ t : Fin cfg0.N, t.val = (i 0).val / 2048 := ⟨⟨(i 0).val / 2048, by rw [hN]; omega⟩, rfl⟩
  obtain ⟨-, -, -, -, -, -, -, -, -, -, e0, e1⟩ := tile_origin t
  refine ⟨t, flush0_5 t, ?_⟩
  rw [mem_tile]
  intro a
  match a with
  | ⟨0, _⟩ =>
    show win0_5.index t (0 : Fin 2) * 2048 ≤ (i 0).val ∧ (i 0).val < win0_5.index t (0 : Fin 2) * 2048 + 2048
    rw [e0, htv]; omega
  | ⟨1, _⟩ =>
    show win0_5.index t (1 : Fin 2) * 64 ≤ (i 1).val ∧ (i 1).val < win0_5.index t (1 : Fin 2) * 64 + 64
    rw [e1]; omega

/-- After the last step the result array holds the layer's output array of the arguments. -/
theorem final (c : Dev nD) : (dats m 0 c).arrAt 5 cfg0.N = layerOf m c :=
  (dats m 0 c).arrAt_eq_of_cover 5 (layerOf m c) (fun t _ => flushed_eq m c t) covered

/-- The kernel's run, read: every weakly fair execution terminates with the result array at the layer's output array
    of the arguments, and the arguments unchanged. -/
theorem run : θ_run defs (onTc (τ := τ) (main (F := Ideal))) ⟨m, fun _ => 0, ρ⟩ fun r => ∀ c : Dev nD,
      r.2.mem ((c : Thread nD τ).loc main_v2) = layerOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Rows

end
-- ==== Proof.RefIsLayer.lean ====
/-
  The reference computes the layer.

  Its host program masks the input by the drop bits, contracts the masked rows with the weights over the input
  units, adds the bias broadcast along the rows and the prediction scaled by the modulation factor, and rectifies.
  Read at row `r` and unit `j`, one operation at a time, that is the layer's entry there: the contraction
  reads the masked input at `(r, k)` and the weights at `(k, j)`, the two broadcasts of the bias read unit `j`.
-/
import proofs.«128438_j16887811408602_2_alg».proof.Proof.Gen.ReferenceIdeal.Read
import proofs.«128438_j16887811408602_2_alg».proof.Proof.Layer

noncomputable section

namespace Cert.ReferenceIdeal.IsLayer

open Cert.ReferenceIdeal Cert.ReferenceIdeal.Read Idealize.ShloMosaic Idealize.ShloMosaic.ValueIdx Cert.MaskedLayer

/-- The contraction's left operand index at output `(r, j)` and input unit `k` is `(r, k)`. -/
theorem lhs_at (r : Fin 32768) (j : Fin 64) (k : Fin 2048) : lidx_main_v1 (ix2 r j) k = ix2 r k :=
  funext fun a => Fin.ext (by match a with | ⟨0, _⟩ => rfl | ⟨1, _⟩ => rfl)

/-- Its right operand index is `(k, j)`. -/
theorem rhs_at (r : Fin 32768) (j : Fin 64) (k : Fin 2048) : ridx_main_v1 (ix2 r j) k = ix2 k j :=
  funext fun a => Fin.ext (by match a with | ⟨0, _⟩ => rfl | ⟨1, _⟩ => rfl)

/-- The bias, broadcast to a row and then along the rows, is read at unit `j`. -/
theorem bias_at (r : Fin 32768) (j : Fin 64) : idx_main_v2 (idx_main_v3 (ix2 r j)) = ix1 j :=
  funext fun a => Fin.ext (by match a with | ⟨0, _⟩ => rfl)

/-- The reference's result, on the extended reals, is the layer's output array. -/
theorem result_eq (x : (⟨S32768x2048, .f32⟩ : BufTy).Contents (Elt Ideal)) (pred : (⟨S32768x64, .f32⟩ : BufTy).Contents (Elt Ideal))
    (W : (⟨S2048x64, .f32⟩ : BufTy).Contents (Elt Ideal)) (b : (⟨S64, .f32⟩ : BufTy).Contents (Elt Ideal))
    (drop : (⟨S32768x2048, .i1⟩ : BufTy).Contents (Elt Ideal)) :
    val_main_v8 (F := Ideal) x pred W b drop = out x pred W b drop := by
  funext i
  obtain ⟨r, j, rfl⟩ : ∃ (r : Fin 32768) (j : Fin 64), i = ix2 r j := ⟨i 0, i 1, eq_ix2 i⟩
  rw [out_ix2, val_main_v8_apply, val_main_v7_apply, val_main_v4_apply, val_main_v1_apply, val_main_v3_apply,
    val_main_v2_apply, val_main_v6_apply, val_main_v5_apply, val_main_cst_0_apply, val_main_call1_v0_apply,
    val_main_call1_cst_apply]
  simp only [val_main_v0_apply, val_main_call0_v0_apply, val_main_cst_apply, lhs_at, rhs_at, bias_at,
    Ideal.maximumf_def, Ideal.addf_def, Ideal.mulf_def, Ideal.ofBits_def]
  rfl

end Cert.ReferenceIdeal.IsLayer

end
-- ==== Proof.lean ====
/-
  A dense layer on masked inputs, tiled over rows, against its whole-array reference.

  Both programs compute, on the extended reals,

    out r j = max ((∑ k, (if drop r k then 0 else x r k) · W k j + b j) + c · pred r j) 0

  for the 32768 rows `r` and the 64 units `j`, the sum over the 2048 input units `k`, `c` the float nearest 0.3 (the same
  word in both programs). The reference does it on whole arrays: a select on the drop bits, one contraction, two
  broadcasts of the bias, the scaled prediction, a maximum with zero (Proof/RefIsLayer.lean). The kernel does it in 16
  steps of 2048 rows; it is handed the drop bits widened to 32-bit words and tests them for being nonzero, which gives
  the bits back, and multiplies each masked tile by the weights into a zero accumulator, which on the extended reals is
  the plain sum (Proof/TileEntry.lean); the 16 row blocks it writes are the rows of one array (Proof/Rows.lean). The sum
  is the same finite sum of the same terms on both sides, so no law beyond that is needed and the inputs' finiteness is
  never used. The three programs' runs and unchanged arguments are the generated frames and the reference's generated
  run; the idealized kernel is the kernel's own text (nothing was rewritten), so that conjunct holds trivially.
-/
import proofs.«128438_j16887811408602_2_alg».proof.Defs
import proofs.«128438_j16887811408602_2_alg».proof.Proof.Gen.Kernel
import proofs.«128438_j16887811408602_2_alg».proof.Proof.Gen.Kernel.Skeleton
import proofs.«128438_j16887811408602_2_alg».proof.Proof.Gen.Kernel.Launch
import proofs.«128438_j16887811408602_2_alg».proof.Proof.Gen.Kernel.Points
import proofs.«128438_j16887811408602_2_alg».proof.Proof.Gen.Kernel.Frame
import proofs.«128438_j16887811408602_2_alg».proof.Proof.Gen.KernelIdeal
import proofs.«128438_j16887811408602_2_alg».proof.Proof.Gen.KernelIdeal.Skeleton
import proofs.«128438_j16887811408602_2_alg».proof.Proof.Gen.KernelIdeal.Launch
import proofs.«128438_j16887811408602_2_alg».proof.Proof.Gen.KernelIdeal.Points
import proofs.«128438_j16887811408602_2_alg».proof.Proof.Gen.KernelIdeal.Frame
import proofs.«128438_j16887811408602_2_alg».proof.Proof.Gen.ReferenceIdeal
import proofs.«128438_j16887811408602_2_alg».proof.Proof.Gen.Pre_finite_inputs
import proofs.«128438_j16887811408602_2_alg».proof.Proof.Gen.KernelIdeal.Value
import proofs.«128438_j16887811408602_2_alg».proof.Proof.Gen.ReferenceIdeal.Run
import proofs.«128438_j16887811408602_2_alg».proof.Proof.Gen.ReferenceIdeal.Read
import proofs.«128438_j16887811408602_2_alg».proof.Proof.Rows
import proofs.«128438_j16887811408602_2_alg».proof.Proof.RefIsLayer
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference runs and leaves its arguments as they were: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- From arguments that agree, the kernel's result array and the reference's both end at the layer's output array of
    those arguments. -/
theorem algebraic : Cert.algebraic_KernelIdeal_ReferenceIdeal := by
  intro m ρ m' ρ' _ hagree
  refine ⟨fun c => Cert.KernelIdeal.Rows.layerOf m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.IsLayer.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
